-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S10000x128 : Shape := ⟨2, ![10000, 128]⟩
abbrev S10000x16 : Shape := ⟨2, ![10000, 16]⟩

abbrev nBuf : Space → Nat
  | .hbm => 91
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S100000x16, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x16, .f32⟩
  | .hbm, ⟨78, _⟩ => ⟨S3300000x1, .f32⟩
  | .hbm, ⟨79, _⟩ => ⟨S3300000x16, .f32⟩
  | .hbm, ⟨80, _⟩ => ⟨S3300000x16, .f32⟩
  | .hbm, ⟨81, _⟩ => ⟨S_, .f32⟩
  | .hbm, ⟨82, _⟩ => ⟨S100000x16, .f32⟩
  | .hbm, ⟨83, _⟩ => ⟨S3300000x1, .i32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S100000x16, .f32⟩
  | .hbm, ⟨88, _⟩ => ⟨S_, .f32⟩
  | .hbm, ⟨89, _⟩ => ⟨S100000x16, .f32⟩
  | .hbm, ⟨90, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x16, .f32⟩
  | .local _ .vmem, ⟨8, _⟩ => ⟨S10000x16, .f32⟩
  | .local _ .vmem, ⟨9, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_v14 : Ref sig .tc := ⟨.hbm, 25, rfl⟩
abbrev main_call0_c : Ref sig .tc := ⟨.hbm, 26, rfl⟩
abbrev main_call0_v15 : Ref sig .tc := ⟨.hbm, 27, rfl⟩
abbrev main_call0_v16 : Ref sig .tc := ⟨.hbm, 28, rfl⟩
abbrev main_call0_c_3 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_c_4 : Ref sig .tc := ⟨.hbm, 35, rfl⟩
abbrev main_call0_v22 : Ref sig .tc := ⟨.hbm, 36, rfl⟩
abbrev main_call0_v23 : Ref sig .tc := ⟨.hbm, 37, rfl⟩
abbrev main_call0_c_5 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_c_6 : Ref sig .tc := ⟨.hbm, 46, rfl⟩
abbrev main_call0_v31 : Ref sig .tc := ⟨.hbm, 47, rfl⟩
abbrev main_call0_v32 : Ref sig .tc := ⟨.hbm, 48, rfl⟩
abbrev main_call0_c_7 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_v40 : Ref sig .tc := ⟨.hbm, 57, rfl⟩
abbrev main_call0_cst_8 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_call0_v45 : Ref sig .tc := ⟨.hbm, 63, rfl⟩
abbrev main_call0_v46 : Ref sig .tc := ⟨.hbm, 64, rfl⟩
abbrev main_call0_call1_cst : Ref sig .tc := ⟨.hbm, 65, rfl⟩
abbrev main_call0_call1_v0 : Ref sig .tc := ⟨.hbm, 66, rfl⟩
abbrev main_call0_v47 : Ref sig .tc := ⟨.hbm, 67, rfl⟩
abbrev main_call0_v48 : Ref sig .tc := ⟨.hbm, 68, rfl⟩
abbrev main_call0_c_9 : Ref sig .tc := ⟨.hbm, 69, rfl⟩
abbrev main_call0_v49 : Ref sig .tc := ⟨.hbm, 70, rfl⟩
abbrev main_call0_v50 : Ref sig .tc := ⟨.hbm, 71, rfl⟩
abbrev main_call0_c_10 : Ref sig .tc := ⟨.hbm, 72, rfl⟩
abbrev main_call0_v51 : Ref sig .tc := ⟨.hbm, 73, rfl⟩
abbrev main_call0_v52 : Ref sig .tc := ⟨.hbm, 74, rfl⟩
abbrev main_call0_v53 : Ref sig .tc := ⟨.hbm, 75, rfl⟩
abbrev main_call0_v54 : Ref sig .tc := ⟨.hbm, 76, rfl⟩
abbrev main_call0_v55 : Ref sig .tc := ⟨.hbm, 77, rfl⟩
abbrev main_call0_v56 : Ref sig .tc := ⟨.hbm, 78, rfl⟩
abbrev main_call0_v57 : Ref sig .tc := ⟨.hbm, 79, rfl⟩
abbrev main_call0_v58 : Ref sig .tc := ⟨.hbm, 80, rfl⟩
abbrev main_call0_cst_11 : Ref sig .tc := ⟨.hbm, 81, rfl⟩
abbrev main_call0_v59 : Ref sig .tc := ⟨.hbm, 82, rfl⟩
abbrev main_call0_v60 : Ref sig .tc := ⟨.hbm, 83, rfl⟩
abbrev main_call0_v61 : Ref sig .tc := ⟨.hbm, 84, rfl⟩
abbrev main_call0_v62 : Ref sig .tc := ⟨.hbm, 85, rfl⟩
abbrev main_call0_v63 : Ref sig .tc := ⟨.hbm, 86, rfl⟩
abbrev main_call0_v64 : Ref sig .tc := ⟨.hbm, 87, rfl⟩
abbrev main_call0_call2_cst : Ref sig .tc := ⟨.hbm, 88, rfl⟩
abbrev main_call0_call2_v0 : Ref sig .tc := ⟨.hbm, 89, rfl⟩
abbrev main_v0 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x128_S128x16_S10000x16_1_0_0_1_n_n_wf : DotDims.WF S10000x128 S128x16 S10000x16 [1] [0] [0] [1] [] []
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v48) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S100000x16, .f32⟩
  | .hbm, ⟨69, _⟩ => ⟨S100000, .i32⟩
  | .hbm, ⟨70, _⟩ => ⟨S3300000, .i32⟩
  | .hbm, ⟨71, _⟩ => ⟨S3300000, .i32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S3300000, .i32⟩
  | .hbm, ⟨87, _⟩ => ⟨S3300000, .i1⟩
  | .hbm, ⟨88, _⟩ => ⟨S_, .i32⟩
  | .hbm, ⟨89, _⟩ => ⟨S3300000, .i32⟩
  | .hbm, ⟨90, _⟩ => ⟨S3300000, .i32⟩
  | .hbm, ⟨91, _⟩ => ⟨S3300000, .i32⟩
  | .hbm, ⟨92, _⟩ => ⟨S3300000x1, .i32⟩
  | .hbm, ⟨93, _⟩ => ⟨S3300000, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000, .f32⟩
  | .hbm, ⟨103, _⟩ => ⟨S3300000, .f32⟩
  | .hbm, ⟨104, _⟩ => ⟨S_, .i32⟩
  | .hbm, ⟨105, _⟩ => ⟨S3300000, .i32⟩
  | .hbm, ⟨106, _⟩ => ⟨S3300000, .i1⟩
  | .hbm, ⟨107, _⟩ => ⟨S_, .i32⟩
  | .hbm, ⟨108, _⟩ => ⟨S3300000, .i32⟩
  | .hbm, ⟨109, _⟩ => ⟨S3300000, .i32⟩
  | .hbm, ⟨110, _⟩ => ⟨S3300000, .i32⟩
  | .hbm, ⟨111, _⟩ => ⟨S3300000x1, .i32⟩
  | .hbm, ⟨112, _⟩ => ⟨S3300000x16, .f32⟩
  | .hbm, ⟨113, _⟩ => ⟨S3300000x1, .f32⟩
  | .hbm, ⟨114, _⟩ => ⟨S3300000x16, .f32⟩
  | .hbm, ⟨115, _⟩ => ⟨S3300000x16, .f32⟩
  | .hbm, ⟨116, _⟩ => ⟨S_, .f32⟩
  | .hbm, ⟨117, _⟩ => ⟨S100000x16, .f32⟩
  | .hbm, ⟨118, _⟩ => ⟨S3300000x1, .i32⟩
  | .hbm, ⟨119, _⟩ => ⟨S100000x16, .f32⟩
  | .hbm, ⟨120, _⟩ => ⟨S1x16, .f32⟩
  | .hbm, ⟨121, _⟩ => ⟨S100000x16, .f32⟩
  | .hbm, ⟨122, _⟩ => ⟨S100000x16, .f32⟩
  | .hbm, ⟨123, _⟩ => ⟨S_, .f32⟩
  | .hbm, ⟨124, _⟩ => ⟨S100000x16, .f32⟩
  | .hbm, ⟨125, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call3_cst : Ref sig .tc := ⟨.hbm, 123, rfl⟩
abbrev main_call3_v0 : Ref sig .tc := ⟨.hbm, 124, rfl⟩
abbrev main_v91 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.Graph.lean ====
/-
  The graph convolution's host side as pure functions of the arrays, spelt with the reference program's shapes:
  the edge list with a self loop added per node (`src`, `dst`), an index wrapped once if negative (`wrap`), the
  in-degree and its inverse square root where the degree is positive (`deg`, `dinv`), the symmetric coefficient
  `dinv[src] · dinv[dst]` of every edge (`coef`), and one layer's aggregation after its dense product `h`:
  gather the rows of `h` at the sources, scale each by its edge's coefficient, add them up at the destinations,
  add the bias and clamp below at zero (`layer`). Both programs are these functions; they differ only in how the
  dense product `h` is obtained, and in that one of them computes the coefficients once and the other per layer.
-/
import proofs.«177827_j62079457296944_2_alg».proof.ReferenceIdeal
import proofs.«177827_j62079457296944_2_alg».proof.Proof.Gen.ReferenceIdeal

noncomputable section

namespace Cert.ReferenceIdeal.Graph

open Cert.ReferenceIdeal Cert.ReferenceIdeal.Gen Idealize.ShloMosaic

variable {F : FTy → Type} [FloatOps F]

/-- The sources: row 0 of the edge list, then the self loops. -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destinations: row 1 of the edge list, then the self loops. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative index counts from the end: `r + 100000` where `r < 0`, else `r`. -/
def wrap (r : (⟨S3300000, .i32⟩ : BufTy).Contents (Elt F)) : (⟨S3300000, .i32⟩ : BufTy).Contents (Elt F) :=
  select (cmpi .slt r (broadcastInDim S3300000 ![] bcast_S_S3300000 (constantI S_ 32 0#32))) (addi r (broadcastInDim S3300000 ![] bcast_S_S3300000 (constantI S_ 32 100000#32))) r

/-- The in-degree: a one added at every edge's destination. -/
def deg (c : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 c) (broadcastInDim S3300000 ![] bcast_S_S3300000 (constant S_ .f32 0x3F800000#32))

/-- `1 / sqrt(degree)` where the degree is positive, else 0. -/
def dinv (c : (⟨S3300000, .i32⟩ : BufTy).Contents (Elt F)) : (⟨S100000, .f32⟩ : BufTy).Contents (Elt F) :=
  select (cmpf (F := F) .ogt (deg (F := F) c) (broadcastInDim S100000 ![] bcast_S_S100000 (constant S_ .f32 0x00000000#32))) (Host.rsqrt (deg (F := F) c)) (broadcastInDim S100000 ![] bcast_S_S100000 (constant S_ .f32 0x00000000#32))

/-- Every edge's coefficient `dinv[source] · dinv[destination]`. -/
def coef (r c : (⟨S3300000, .i32⟩ : BufTy).Contents (Elt F)) : (⟨S3300000, .f32⟩ : BufTy).Contents (Elt F) :=
  mulf (Host.gather gather_S100000_S3300000x1_S3300000_n_0_n_n_0_1_1 (dinv (F := F) c) (broadcastInDim S3300000x1 ![0] bcast_S3300000_S3300000x1_0 (wrap (F := F) r))) (Host.gather gather_S100000_S3300000x1_S3300000_n_0_n_n_0_1_1 (dinv (F := F) c) (broadcastInDim S3300000x1 ![0] bcast_S3300000_S3300000x1_0 (wrap (F := F) c)))

/-- One layer after its dense product `h`: `max(0, bias + Σ_{edges into a node} coefficient · h[source])`. -/
def layer (r c : (⟨S3300000, .i32⟩ : BufTy).Contents (Elt F)) (nrm : (⟨S3300000, .f32⟩ : BufTy).Contents (Elt F))
    (b : (⟨S16, .f32⟩ : BufTy).Contents (Elt F)) (h : (⟨S100000x16, .f32⟩ : BufTy).Contents (Elt F)) :
    (⟨S100000x16, .f32⟩ : BufTy).Contents (Elt F) :=
  maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 c) (mulf (Host.gather gather_S100000x16_S3300000x1_S3300000x16_1_0_n_n_0_1_116 h (broadcastInDim S3300000x1 ![0] bcast_S3300000_S3300000x1_0 (wrap (F := F) r))) (broadcastInDim S3300000x16 ![0, 1] bcast_S3300000x1_S3300000x16_0_1 (broadcastInDim S3300000x1 ![0] bcast_S3300000_S3300000x1_0 nrm)))) (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- The two layers: the features `x` times the first weights, aggregated over the edges `e` with the first bias and
    clamped; that times the second weights, aggregated with the second bias and clamped. -/
def net (x : (⟨S100000x128, .f32⟩ : BufTy).Contents (Elt F)) (e : (⟨S2x3200000, .i32⟩ : BufTy).Contents (Elt F))
    (w1 : (⟨S128x16, .f32⟩ : BufTy).Contents (Elt F)) (b1 : (⟨S16, .f32⟩ : BufTy).Contents (Elt F))
    (w2 : (⟨S16x16, .f32⟩ : BufTy).Contents (Elt F)) (b2 : (⟨S16, .f32⟩ : BufTy).Contents (Elt F)) :
    (⟨S100000x16, .f32⟩ : BufTy).Contents (Elt F) :=
  layer (F := F) (src (F := F) e) (dst (F := F) e) (coef (F := F) (src (F := F) e) (dst (F := F) e)) b2
    (Host.dotGeneral dot_S100000x16_S16x16_S100000x16_1_0_0_1_n_n none
      (layer (F := F) (src (F := F) e) (dst (F := F) e) (coef (F := F) (src (F := F) e) (dst (F := F) e)) b1
        (Host.dotGeneral dot_S100000x128_S128x16_S100000x16_1_0_0_1_n_n none x w1)) w2)

end Cert.ReferenceIdeal.Graph

end
-- ==== Proof.RefValue.lean ====
/-
  The reference program's result is the two-layer function of its arguments: its composed term — which spells the
  edge data out again wherever an operation reads it, and computes the coefficients once per layer — is, subterm by
  subterm, `Graph.net` of the six argument arrays.
-/
import proofs.«177827_j62079457296944_2_alg».proof.Proof.RefRun
import proofs.«177827_j62079457296944_2_alg».proof.Proof.Graph

set_option maxRecDepth 16384

noncomputable section

namespace Cert.ReferenceIdeal.RefValue

open Cert.ReferenceIdeal Cert.ReferenceIdeal.Gen Cert.ReferenceIdeal.Graph
open Idealize.ShloMosaic Idealize.ShloMosaic.TcCoe Idealize.SL.Sem

variable {F : FTy → Type} [FloatOps F]

theorem result_eq (m : (ℓ : Loc nD τ sig) → Buf (Elt F) ℓ) (c : Dev nD) :
    Cert.ReferenceIdeal.ValueP.res_main_v91 (F := F) m c
      = net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v91 net layer coef dinv deg wrap src dst
  rfl

end Cert.ReferenceIdeal.RefValue

end
-- ==== Proof.KernelRun.lean ====
/-
  The kernel program's run with its result named. The program is five segments: host operations, the first
  pallas_call, host operations, the second pallas_call, host operations. Every weakly fair execution terminates
  without a fault, and in the final state the result buffer holds what the fold of the five segments over the
  launch memory leaves there (`Gen.W5` at the result), while the six argument arrays are as launched: the launch
  of the five segments, with the result buffer read off the last thread state beside the arguments.
-/
import proofs.«177827_j62079457296944_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    segments' fold and the arguments unchanged. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.Dense.lean ====
/-
  The two kernel bodies, read at an index at the extended reals. Each body loads a block of rows and the whole
  weight matrix, changes both to bf16 (no change at the extended reals), and stores their matrix product into the
  zero accumulator: entry `(p, q)` of what it stores is the sum over the inner coordinate `k` of
  `rows (p, k) · weights (k, q)`.
-/
import proofs.«177827_j62079457296944_2_alg».proof.Proof.Gen.KernelIdeal.Skeleton
import proofs.«177827_j62079457296944_2_alg».proof.Proof.LibMatmul
import Idealize.ShloMosaic.Lib.Pipeline.Value

noncomputable section

namespace Cert.KernelIdeal.Dense

open Cert.KernelIdeal Cert.KernelIdeal.Gen Idealize.ShloMosaic Idealize.ShloMosaic.ValueIdx

/-- The first layer's block product: 10000 rows of 128 features times the 128 × 16 weights. -/
theorem pay0_apply (x0 : Vec Ideal S10000x128 .f32) (w : Vec Ideal S128x16 .f32) (p : Fin 10000) (q : Fin 16) :
    k0_pay1 (F := Ideal) x0 w (ix2 p q) = ∑ k : Fin 128, x0 (ix2 p k) * w (ix2 k q) :=
  matmul_plain_zero_apply 10000 128 16 none (truncf (F := Ideal) .bf16 x0 bitsLt_bf16_f32)
    (truncf (F := Ideal) .bf16 w bitsLt_bf16_f32) p q

/-- The second layer's block product: 10000 rows of 16 hidden features times the 16 × 16 weights (the rows pass
    through a reshape to their own shape first, which changes nothing). -/
theorem pay1_apply (x0 : Vec Ideal S10000x16 .f32) (w : Vec Ideal S16x16 .f32) (p : Fin 10000) (q : Fin 16) :
    k1_pay1 (F := Ideal) x0 w (ix2 p q) = ∑ k : Fin 16, x0 (ix2 p k) * w (ix2 k q) := by
  have h := matmul_plain_zero_apply 10000 16 16 none
    (truncf (F := Ideal) .bf16 (shapeCast S10000x16 x0 shapeCasts_S10000x16_S10000x16) bitsLt_bf16_f32)
    (truncf (F := Ideal) .bf16 w bitsLt_bf16_f32) p q
  refine h.trans ?_
  show ∑ k : Fin 16, (shapeCast S10000x16 x0 shapeCasts_S10000x16_S10000x16) (ix2 p k) * w (ix2 k q) = _
  rw [shapeCast_self]

end Cert.KernelIdeal.Dense

end
-- ==== Proof.LibDot.lean ====
/-
  The host's `dot_general` read at an index: for the dimension numbers that contract the left operand's second
  axis with the right operand's first (rows × inner times inner × columns, no batch axis), the product at the
  extended reals is, at `(i, j)`, the sum over the inner coordinate `k` of `lhs (i, k) · rhs (k, j)`,
  whatever the precision and the schedule key. Beside the same fact for a product into the zero accumulator this
  makes a row-tiled product and the whole product one function of the two matrices.
-/
import Idealize.ShloMosaic.PureOps.Ideal.Laws
import Idealize.ShloMosaic.Lib.ValueIdx

noncomputable section

namespace Idealize.ShloMosaic.ValueIdx

/-- The host's plain product, at `(i, j)`, as a sum over the inner coordinate. -/
theorem dotGeneral_plain_apply (M K N : ℕ) {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.Layer0.lean ====
/-
  The first pallas_call (features times the first layer's weights), read as one whole-array function.
  The pallas_call walks ten grid points; point `t` takes rows `10000·t … 10000·t + 9999` of the left matrix and the
  whole weight matrix, and writes back rows `10000·t … 10000·t + 9999` of the result. Entry `(r, q)` of what
  point `r / 10000` writes is the sum over `k` of `left (r, k) · weights (k, q)`, which is entry `(r, q)` of the one
  whole product of the two matrices; the ten row blocks tile the result, so after the last write-back the result
  array IS the whole product — of whatever the two operand arrays hold when the region is entered.
-/
import proofs.«177827_j62079457296944_2_alg».proof.Proof.Gen.KernelIdeal.Frame
import proofs.«177827_j62079457296944_2_alg».proof.Proof.Dense
import proofs.«177827_j62079457296944_2_alg».proof.Proof.LibDot

set_option maxRecDepth 16384

noncomputable section

namespace Cert.KernelIdeal.Layer0

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem origin_zero : (![0, 0] : Fin 2 → Nat) = fun _ => 0 := funext fun a => by fin_cases a <;> rfl

/-- The whole product of the two matrices. -/
def whole (x : FVec Ideal S100000x128 .f32) (w : FVec Ideal S128x16 .f32) : FVec Ideal S100000x16 .f32 :=
  Host.dotGeneral (F := Ideal) (DotDims.plain 100000 128 16) none x w

/-- Its entry `(r, q)` is the sum over the inner coordinate. -/
theorem whole_apply (x : FVec Ideal S100000x128 .f32) (w : FVec Ideal S128x16 .f32) (r : Fin 100000) (q : Fin 16) :
    whole x w (ix2 r q) = ∑ k : Fin 128, x (ix2 r k) * w (ix2 k q) :=
  dotGeneral_plain_apply 100000 128 16 none .single x w r q

/-- A block product agrees with the whole product where the block sits: if `x0` is rows `b·10000 …` of `x` and
    `w0` is `w`, entry `(p, q)` of the block's product is entry `(b·10000 + p, q)` of the whole one. -/
theorem block_eq_whole (x : FVec Ideal S100000x128 .f32) (w : FVec Ideal S128x16 .f32)
    (x0 : Vec Ideal S10000x128 .f32) (w0 : Vec Ideal S128x16 .f32) (b : ℕ)
    (hx : ∀ (p : Fin 10000) (k : Fin 128) (hr : b * 10000 + p.val < 100000), x0 (ix2 p k) = x (ix2 ⟨b * 10000 + p.val, hr⟩ k))
    (hw : ∀ (k : Fin 128) (q : Fin 16), w0 (ix2 k q) = w (ix2 k q))
    (p : Fin 10000) (q : Fin 16) (hr : b * 10000 + p.val < 100000) :
    k0_pay1 (F := Ideal) x0 w0 (ix2 p q) = whole x w (ix2 ⟨b * 10000 + p.val, hr⟩ q) := by
  rw [pay0_apply, whole_apply]
  exact Finset.sum_congr rfl fun k _ => by rw [hx p k hr, hw k q]

/-- The printed index maps over the grid: the rows' block index is the point, every other block index is 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the operand arrays as the region finds them. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero origin_zero]
  simp only [View.ld_unit_zero (S := S10000x128) origin_zero, View.ld_unit_zero (S := S128x16) origin_zero]
  obtain ⟨e0, e1, e2, e3, e4, e5⟩ := index_facts t
  have ht : t.val < 10 := t.isLt
  funext j
  obtain ⟨p, q, rfl⟩ : ∃ (p : Fin 10000) (q : Fin 16), j = ix2 p q := ⟨j 0, j 1, eq_ix2 j⟩
  have hr : t.val * 10000 + p.val < 100000 := by have := p.isLt; omega
  have hemb : ((cfg0.win 2).blk t).view.emb (ix2 p q) = ix2 ⟨t.val * 10000 + p.val, hr⟩ q := by
    funext a; apply Fin.ext
    match a with
    | ⟨0, _⟩ => show win0_2.index t (0 : Fin 2) * 10000 + 1 * p.val = t.val * 10000 + p.val; omega
    | ⟨1, _⟩ => show win0_2.index t (1 : Fin 2) * 16 + 1 * q.val = q.val; omega
  show k0_pay1 (iblk0 V c 0 t) (iblk0 V c 1 t) (ix2 p q) = whole (V c main_arg0) (V c main_arg2) (((cfg0.win 2).blk t).view.emb (ix2 p q))
  rw [hemb]
  refine block_eq_whole (V c main_arg0) (V c main_arg2) (iblk0 V c 0 t) (iblk0 V c 1 t) t.val ?_ ?_ p q hr
  · intro p k hr
    show V c main_arg0 (((cfg0.win 0).blk t).view.emb (ix2 p k)) = V c main_arg0 (ix2 ⟨t.val * 10000 + p.val, hr⟩ k)
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k q
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 16 + 1 * q.val = q.val; omega

/-- An index of the result array is in point `t`'s block iff each coordinate is in the block's range. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_call0_v30).slice (win0_2.rect t)).set ↔ _
  rw [View.set_slice_whole, Rect.mem_set_unit]
  exact Iff.rfl

/-- The ten row blocks tile the result: row `r` is in the block of point `r / 10000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hlt : (i 0).val / 10000 < 10 := by omega
  refine ⟨⟨(i 0).val / 10000, hlt⟩, flush0_2 _, ?_⟩
  obtain ⟨-, -, -, -, e4, e5⟩ := index_facts ⟨(i 0).val / 10000, hlt⟩
  have e4' : win0_2.index ⟨(i 0).val / 10000, hlt⟩ (0 : Fin 2) = (i 0).val / 10000 := e4
  rw [mem_block]
  intro a
  match a with
  | ⟨0, _⟩ => show win0_2.index ⟨(i 0).val / 10000, hlt⟩ (0 : Fin 2) * 10000 ≤ (i 0).val ∧ (i 0).val < win0_2.index ⟨(i 0).val / 10000, hlt⟩ (0 : Fin 2) * 10000 + 10000; omega
  | ⟨1, _⟩ => show win0_2.index ⟨(i 0).val / 10000, hlt⟩ (1 : Fin 2) * 16 ≤ (i 1).val ∧ (i 1).val < win0_2.index ⟨(i 0).val / 10000, hlt⟩ (1 : Fin 2) * 16 + 16; omega

/-- The result array after the region: the whole product of the operand arrays as the region finds them. -/
theorem result (c : Dev nD) :
    (dat0 V c).arrAt 2 cfg0.N = whole (V c main_arg0) (V c main_arg2) :=
  (dat0 V c).arrAt_eq_of_cover 2 (whole (V c main_arg0) (V c main_arg2)) (fun t _ => flushed_eq V c t) cover

end Cert.KernelIdeal.Layer0

end
-- ==== Proof.Layer1.lean ====
/-
  The second pallas_call (hidden features times the second layer's weights), read as one whole-array function.
  The pallas_call walks ten grid points; point `t` takes rows `10000·t … 10000·t + 9999` of the left matrix and the
  whole weight matrix, and writes back rows `10000·t … 10000·t + 9999` of the result. Entry `(r, q)` of what
  point `r / 10000` writes is the sum over `k` of `left (r, k) · weights (k, q)`, which is entry `(r, q)` of the one
  whole product of the two matrices; the ten row blocks tile the result, so after the last write-back the result
  array IS the whole product — of whatever the two operand arrays hold when the region is entered.
-/
import proofs.«177827_j62079457296944_2_alg».proof.Proof.Gen.KernelIdeal.Frame
import proofs.«177827_j62079457296944_2_alg».proof.Proof.Dense
import proofs.«177827_j62079457296944_2_alg».proof.Proof.LibDot

set_option maxRecDepth 16384

noncomputable section

namespace Cert.KernelIdeal.Layer1

open Cert.KernelIdeal Cert.KernelIdeal.Gen Cert.KernelIdeal.Dense
open Idealize.ShloMosaic Idealize.ShloMosaic.TcCoe Idealize.ShloMosaic.ValueIdx Idealize.SL.Sem
open Idealize.ShloMosaic.Pipeline (Dat)

-- the buffer contents when the region is entered
variable (V : (c : Dev nD) → (b : Ref sig .tc) → Buf (Elt Ideal) ((c : Thread nD τ).loc b))

theorem origin_zero : (![0, 0] : Fin 2 → Nat) = fun _ => 0 := funext fun a => by fin_cases a <;> rfl

/-- The whole product of the two matrices. -/
def whole (x : FVec Ideal S100000x16 .f32) (w : FVec Ideal S16x16 .f32) : FVec Ideal S100000x16 .f32 :=
  Host.dotGeneral (F := Ideal) (DotDims.plain 100000 16 16) none x w

/-- Its entry `(r, q)` is the sum over the inner coordinate. -/
theorem whole_apply (x : FVec Ideal S100000x16 .f32) (w : FVec Ideal S16x16 .f32) (r : Fin 100000) (q : Fin 16) :
    whole x w (ix2 r q) = ∑ k : Fin 16, x (ix2 r k) * w (ix2 k q) :=
  dotGeneral_plain_apply 100000 16 16 none .single x w r q

/-- A block product agrees with the whole product where the block sits: if `x0` is rows `b·10000 …` of `x` and
    `w0` is `w`, entry `(p, q)` of the block's product is entry `(b·10000 + p, q)` of the whole one. -/
theorem block_eq_whole (x : FVec Ideal S100000x16 .f32) (w : FVec Ideal S16x16 .f32)
    (x0 : Vec Ideal S10000x16 .f32) (w0 : Vec Ideal S16x16 .f32) (b : ℕ)
    (hx : ∀ (p : Fin 10000) (k : Fin 16) (hr : b * 10000 + p.val < 100000), x0 (ix2 p k) = x (ix2 ⟨b * 10000 + p.val, hr⟩ k))
    (hw : ∀ (k : Fin 16) (q : Fin 16), w0 (ix2 k q) = w (ix2 k q))
    (p : Fin 10000) (q : Fin 16) (hr : b * 10000 + p.val < 100000) :
    k1_pay1 (F := Ideal) x0 w0 (ix2 p q) = whole x w (ix2 ⟨b * 10000 + p.val, hr⟩ q) := by
  rw [pay1_apply, whole_apply]
  exact Finset.sum_congr rfl fun k _ => by rw [hx p k hr, hw k q]

/-- The printed index maps over the grid: the rows' block index is the point, every other block index is 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the operand arrays as the region finds them. -/
theorem flushed_eq (c : Dev nD) (t : Fin cfg1.N) :
    (dat1 V c).flushed 2 t = ((cfg1.win 2).blk t).view.read (Elt Ideal) (whole (V c main_call0_v47) (V c main_arg4)) := by
  show (cfg1.win 2).cut (grid1.coords t) ((dat1 V c).after 2 t) = _
  rw [after1_2]
  unfold out1_2
  rw [View.canon_unit_zero origin_zero]
  simp only [View.ld_unit_zero (S := S10000x16) origin_zero, View.ld_unit_zero (S := S16x16) origin_zero]
  obtain ⟨e0, e1, e2, e3, e4, e5⟩ := index_facts t
  have ht : t.val < 10 := t.isLt
  funext j
  obtain ⟨p, q, rfl⟩ : ∃ (p : Fin 10000) (q : Fin 16), j = ix2 p q := ⟨j 0, j 1, eq_ix2 j⟩
  have hr : t.val * 10000 + p.val < 100000 := by have := p.isLt; omega
  have hemb : ((cfg1.win 2).blk t).view.emb (ix2 p q) = ix2 ⟨t.val * 10000 + p.val, hr⟩ q := by
    funext a; apply Fin.ext
    match a with
    | ⟨0, _⟩ => show win1_2.index t (0 : Fin 2) * 10000 + 1 * p.val = t.val * 10000 + p.val; omega
    | ⟨1, _⟩ => show win1_2.index t (1 : Fin 2) * 16 + 1 * q.val = q.val; omega
  show k1_pay1 (iblk1 V c 0 t) (iblk1 V c 1 t) (ix2 p q) = whole (V c main_call0_v47) (V c main_arg4) (((cfg1.win 2).blk t).view.emb (ix2 p q))
  rw [hemb]
  refine block_eq_whole (V c main_call0_v47) (V c main_arg4) (iblk1 V c 0 t) (iblk1 V c 1 t) t.val ?_ ?_ p q hr
  · intro p k hr
    show V c main_call0_v47 (((cfg1.win 0).blk t).view.emb (ix2 p k)) = V c main_call0_v47 (ix2 ⟨t.val * 10000 + p.val, hr⟩ k)
    refine congrArg (V c main_call0_v47) ?_
    funext a; apply Fin.ext
    match a with
    | ⟨0, _⟩ => show win1_0.index t (0 : Fin 2) * 10000 + 1 * p.val = t.val * 10000 + p.val; omega
    | ⟨1, _⟩ => show win1_0.index t (1 : Fin 2) * 16 + 1 * k.val = k.val; omega
  · intro k q
    show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 16 + 1 * k.val = k.val; omega
    | ⟨1, _⟩ => show win1_1.index t (1 : Fin 2) * 16 + 1 * q.val = q.val; omega

/-- An index of the result array is in point `t`'s block iff each coordinate is in the block's range. -/
theorem mem_block (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_call0_v48).slice (win1_2.rect t)).set ↔ _
  rw [View.set_slice_whole, Rect.mem_set_unit]
  exact Iff.rfl

/-- The ten row blocks tile the result: row `r` is in the block of point `r / 10000`. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hlt : (i 0).val / 10000 < 10 := by omega
  refine ⟨⟨(i 0).val / 10000, hlt⟩, flush1_2 _, ?_⟩
  obtain ⟨-, -, -, -, e4, e5⟩ := index_facts ⟨(i 0).val / 10000, hlt⟩
  have e4' : win1_2.index ⟨(i 0).val / 10000, hlt⟩ (0 : Fin 2) = (i 0).val / 10000 := e4
  rw [mem_block]
  intro a
  match a with
  | ⟨0, _⟩ => show win1_2.index ⟨(i 0).val / 10000, hlt⟩ (0 : Fin 2) * 10000 ≤ (i 0).val ∧ (i 0).val < win1_2.index ⟨(i 0).val / 10000, hlt⟩ (0 : Fin 2) * 10000 + 10000; omega
  | ⟨1, _⟩ => show win1_2.index ⟨(i 0).val / 10000, hlt⟩ (1 : Fin 2) * 16 ≤ (i 1).val ∧ (i 1).val < win1_2.index ⟨(i 0).val / 10000, hlt⟩ (1 : Fin 2) * 16 + 16; omega

/-- The result array after the region: the whole product of the operand arrays as the region finds them. -/
theorem result (c : Dev nD) :
    (dat1 V c).arrAt 2 cfg1.N = whole (V c main_call0_v47) (V c main_arg4) :=
  (dat1 V c).arrAt_eq_of_cover 2 (whole (V c main_call0_v47) (V c main_arg4)) (fun t _ => flushed_eq V c t) cover

end Cert.KernelIdeal.Layer1

end
-- ==== Proof.Fold.lean ====
/-
  What the kernel program's five segments leave in the result buffer, as one function of the argument arrays.
  The first stretch of host operations computes, from the edge list alone, the sources and destinations with the
  self loops added and every edge's coefficient. The first pallas_call leaves the whole product of the features and
  the first weights; the second stretch aggregates it into the hidden features; the second pallas_call leaves the
  whole product of the hidden features and the second weights; the last stretch aggregates that into the result.
  Neither pallas_call and no later stretch writes the edge data or an argument, so each later reader finds them as
  the first stretch, or the launch, left them.
-/
import proofs.«177827_j62079457296944_2_alg».proof.Proof.Gen.KernelIdeal.Frame
import proofs.«177827_j62079457296944_2_alg».proof.Proof.Graph
import proofs.«177827_j62079457296944_2_alg».proof.Proof.Layer0
import proofs.«177827_j62079457296944_2_alg».proof.Proof.Layer1
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Graph (src dst coef layer)

variable {F : FTy → Type} [FloatOps F]
variable (m : (ℓ : Loc nD τ sig) → Buf (Elt F) ℓ) (ρ : Dev nD → PrngReg)

/-! ## The first stretch: the edge data, from the edge list -/

theorem W1_src (c : Dev nD) :
    W1 m ρ c (Proc.devRef .tc main_call0_v5) = src (F := F) (m ((c : Thread nD τ).loc main_arg1)) := by
  show StableHlo.after hostOps0 (W0 m ρ c) (Proc.devRef .tc main_call0_v5) = _
  after_results_simp
  rfl

theorem W1_dst (c : Dev nD) :
    W1 m ρ c (Proc.devRef .tc main_call0_v6) = dst (F := F) (m ((c : Thread nD τ).loc main_arg1)) := by
  show StableHlo.after hostOps0 (W0 m ρ c) (Proc.devRef .tc main_call0_v6) = _
  after_results_simp
  rfl

set_option maxHeartbeats 4000000 in
theorem W1_coef (c : Dev nD) :
    W1 m ρ c (Proc.devRef .tc main_call0_v29)
      = coef (F := F) (src (F := F) (m ((c : Thread nD τ).loc main_arg1))) (dst (F := F) (m ((c : Thread nD τ).loc main_arg1))) := by
  show StableHlo.after hostOps0 (W0 m ρ c) (Proc.devRef .tc main_call0_v29) = _
  after_results_simp
  simp only [cast_eq]
  rfl

/-- The first stretch writes no argument. -/
theorem W1_arg (c : Dev nD) (b : Ref sig .tc) (hb : b = main_arg0 ∨ b = main_arg2 ∨ b = main_arg3 ∨ b = main_arg4 ∨ b = main_arg5) :
    W1 m ρ c (Proc.devRef .tc b) = m ((c : Thread nD τ).loc b) := by
  show StableHlo.after hostOps0 (W0 m ρ c) (Proc.devRef .tc b) = _
  rcases hb with rfl | rfl | rfl | rfl | rfl <;> (after_results_simp <;> rfl)

/-! ## What each later segment leaves alone -/

/-- The first pallas_call writes only its own result array. -/
theorem W2_keep (c : Dev nD) (b : Ref sig .tc)
    (hb : b = main_call0_v5 ∨ b = main_call0_v6 ∨ b = main_call0_v29 ∨ b = main_arg3 ∨ b = main_arg4 ∨ b = main_arg5) :
    W2 m ρ c (Proc.devRef .tc b) = W1 m ρ c (Proc.devRef .tc b) := by
  rcases hb with rfl | rfl | rfl | rfl | rfl | rfl <;> exact W2_of_ne m ρ c _ (by decide)

/-- The second stretch writes neither the edge data nor an argument. -/
theorem W3_keep (c : Dev nD) (b : Ref sig .tc)
    (hb : b = main_call0_v5 ∨ b = main_call0_v6 ∨ b = main_call0_v29 ∨ b = main_arg4 ∨ b = main_arg5) :
    W3 m ρ c (Proc.devRef .tc b) = W2 m ρ c (Proc.devRef .tc b) := by
  show StableHlo.after hostOps1 (W2 m ρ c) (Proc.devRef .tc b) = _
  rcases hb with rfl | rfl | rfl | rfl | rfl <;> after_results_simp

/-- The second pallas_call writes only its own result array. -/
theorem W4_keep (c : Dev nD) (b : Ref sig .tc)
    (hb : b = main_call0_v5 ∨ b = main_call0_v6 ∨ b = main_call0_v29 ∨ b = main_arg5) :
    W4 m ρ c (Proc.devRef .tc b) = W3 m ρ c (Proc.devRef .tc b) := by
  rcases hb with rfl | rfl | rfl | rfl <;> exact W4_of_ne m ρ c _ (by decide)

/-! ## The two aggregations, over what the stretch finds -/

set_option maxHeartbeats 4000000 in
/-- The second stretch: the hidden features are one layer's aggregation of the first pallas_call's result. -/
theorem W3_hidden (c : Dev nD) :
    W3 m ρ c (Proc.devRef .tc main_call0_v47)
      = layer (F := F) (W2 m ρ c (Proc.devRef .tc main_call0_v5)) (W2 m ρ c (Proc.devRef .tc main_call0_v6))
          (W2 m ρ c (Proc.devRef .tc main_call0_v29)) (W2 m ρ c (Proc.devRef .tc main_arg3))
          (W2 m ρ c (Proc.devRef .tc main_call0_v30)) := by
  show StableHlo.after hostOps1 (W2 m ρ c) (Proc.devRef .tc main_call0_v47) = _
  after_results_simp
  simp only [cast_eq]
  rfl

set_option maxHeartbeats 4000000 in
/-- The last stretch: the result is one layer's aggregation of the second pallas_call's result. -/
theorem W5_out (c : Dev nD) :
    W5 m ρ c (Proc.devRef .tc main_v0)
      = layer (F := F) (W4 m ρ c (Proc.devRef .tc main_call0_v5)) (W4 m ρ c (Proc.devRef .tc main_call0_v6))
          (W4 m ρ c (Proc.devRef .tc main_call0_v29)) (W4 m ρ c (Proc.devRef .tc main_arg5))
          (W4 m ρ c (Proc.devRef .tc main_call0_v48)) := by
  show StableHlo.after hostOps2 (W4 m ρ c) (Proc.devRef .tc main_v0) = _
  after_results_simp
  simp only [cast_eq]
  rfl

end Cert.KernelIdeal.Fold

end
-- ==== Proof.Net.lean ====
/-
  The kernel program's result, at the extended reals, is the two-layer function of its arguments. Every reader
  after the first stretch finds the edge data and the arguments as they were left (nothing later writes them);
  each pallas_call leaves the whole matrix product of what it finds; a product into the zero accumulator and the
  host's `dot_general` are one function of the two matrices; so the five segments compose to `Graph.net`.
-/
import proofs.«177827_j62079457296944_2_alg».proof.Proof.Fold

set_option maxRecDepth 16384

noncomputable section

namespace Cert.KernelIdeal.Net

open Cert.KernelIdeal Cert.KernelIdeal.Gen Cert.KernelIdeal.Fold
open Idealize.ShloMosaic Idealize.ShloMosaic.TcCoe Idealize.SL.Sem
open Cert.ReferenceIdeal.Graph (src dst coef layer net)

section AnyInstance

variable {F : FTy → Type} [FloatOps F]
variable (m : (ℓ : Loc nD τ sig) → Buf (Elt F) ℓ) (ρ : Dev nD → PrngReg) (c : Dev nD)

/-! ## The edge data and the arguments as each segment finds them -/

theorem W2_src : W2 m ρ c (Proc.devRef .tc main_call0_v5) = src (F := F) (m ((c : Thread nD τ).loc main_arg1)) :=
  (W2_keep m ρ c _ (.inl rfl)).trans (W1_src m ρ c)
theorem W2_dst : W2 m ρ c (Proc.devRef .tc main_call0_v6) = dst (F := F) (m ((c : Thread nD τ).loc main_arg1)) :=
  (W2_keep m ρ c _ (.inr (.inl rfl))).trans (W1_dst m ρ c)
theorem W2_coef : W2 m ρ c (Proc.devRef .tc main_call0_v29)
    = coef (F := F) (src (F := F) (m ((c : Thread nD τ).loc main_arg1))) (dst (F := F) (m ((c : Thread nD τ).loc main_arg1))) :=
  (W2_keep m ρ c _ (.inr (.inr (.inl rfl)))).trans (W1_coef m ρ c)
theorem W2_arg3 : W2 m ρ c (Proc.devRef .tc main_arg3) = m ((c : Thread nD τ).loc main_arg3) :=
  (W2_keep m ρ c _ (.inr (.inr (.inr (.inl rfl))))).trans (W1_arg m ρ c _ (.inr (.inr (.inl rfl))))
theorem W2_arg4 : W2 m ρ c (Proc.devRef .tc main_arg4) = m ((c : Thread nD τ).loc main_arg4) :=
  (W2_keep m ρ c _ (.inr (.inr (.inr (.inr (.inl rfl)))))).trans (W1_arg m ρ c _ (.inr (.inr (.inr (.inl rfl)))))
theorem W2_arg5 : W2 m ρ c (Proc.devRef .tc main_arg5) = m ((c : Thread nD τ).loc main_arg5) :=
  (W2_keep m ρ c _ (.inr (.inr (.inr (.inr (.inr rfl)))))).trans (W1_arg m ρ c _ (.inr (.inr (.inr (.inr rfl)))))

theorem W3_arg4 : W3 m ρ c (Proc.devRef .tc main_arg4) = m ((c : Thread nD τ).loc main_arg4) :=
  (W3_keep m ρ c _ (.inr (.inr (.inr (.inl rfl))))).trans (W2_arg4 m ρ c)

theorem W4_src : W4 m ρ c (Proc.devRef .tc main_call0_v5) = src (F := F) (m ((c : Thread nD τ).loc main_arg1)) :=
  (W4_keep m ρ c _ (.inl rfl)).trans ((W3_keep m ρ c _ (.inl rfl)).trans (W2_src m ρ c))
theorem W4_dst : W4 m ρ c (Proc.devRef .tc main_call0_v6) = dst (F := F) (m ((c : Thread nD τ).loc main_arg1)) :=
  (W4_keep m ρ c _ (.inr (.inl rfl))).trans ((W3_keep m ρ c _ (.inr (.inl rfl))).trans (W2_dst m ρ c))
theorem W4_coef : W4 m ρ c (Proc.devRef .tc main_call0_v29)
    = coef (F := F) (src (F := F) (m ((c : Thread nD τ).loc main_arg1))) (dst (F := F) (m ((c : Thread nD τ).loc main_arg1))) :=
  (W4_keep m ρ c _ (.inr (.inr (.inl rfl)))).trans ((W3_keep m ρ c _ (.inr (.inr (.inl rfl)))).trans (W2_coef m ρ c))
theorem W4_arg5 : W4 m ρ c (Proc.devRef .tc main_arg5) = m ((c : Thread nD τ).loc main_arg5) :=
  (W4_keep m ρ c _ (.inr (.inr (.inr rfl)))).trans ((W3_keep m ρ c _ (.inr (.inr (.inr (.inr rfl))))).trans (W2_arg5 m ρ c))

end AnyInstance

/-! ## At the extended reals: the two products, and the composition -/

variable (m : (ℓ : Loc nD τ sig) → Buf (Elt Ideal) ℓ) (ρ : Dev nD → PrngReg) (c : Dev nD)

/-- A row-tiled product into the zero accumulator is the host's `dot_general` of the whole matrices. -/
theorem whole0_eq (x : FVec Ideal S100000x128 .f32) (w : FVec Ideal S128x16 .f32) :
    Layer0.whole x w = Host.dotGeneral Cert.ReferenceIdeal.dot_S100000x128_S128x16_S100000x16_1_0_0_1_n_n none x w := rfl
theorem whole1_eq (x : FVec Ideal S100000x16 .f32) (w : FVec Ideal S16x16 .f32) :
    Layer1.whole x w = Host.dotGeneral Cert.ReferenceIdeal.dot_S100000x16_S16x16_S100000x16_1_0_0_1_n_n none x w := rfl

/-- After the first pallas_call its result array is the features times the first weights. -/
theorem W2_dense : W2 m ρ c (Proc.devRef .tc main_call0_v30)
    = Layer0.whole (m ((c : Thread nD τ).loc main_arg0)) (m ((c : Thread nD τ).loc main_arg2)) :=
  (W2_arr m ρ c 2).trans ((Layer0.result (V1 m ρ) c).trans
    (congrArg₂ Layer0.whole (W1_arg m ρ c main_arg0 (.inl rfl)) (W1_arg m ρ c main_arg2 (.inr (.inl rfl)))))

/-- The hidden features. -/
theorem W3_hid : W3 m ρ c (Proc.devRef .tc main_call0_v47)
    = layer (F := Ideal) (src (F := Ideal) (m ((c : Thread nD τ).loc main_arg1))) (dst (F := Ideal) (m ((c : Thread nD τ).loc main_arg1)))
        (coef (F := Ideal) (src (F := Ideal) (m ((c : Thread nD τ).loc main_arg1))) (dst (F := Ideal) (m ((c : Thread nD τ).loc main_arg1))))
        (m ((c : Thread nD τ).loc main_arg3))
        (Layer0.whole (m ((c : Thread nD τ).loc main_arg0)) (m ((c : Thread nD τ).loc main_arg2))) := by
  rw [W3_hidden, W2_src, W2_dst, W2_coef, W2_arg3, W2_dense]

/-- After the second pallas_call its result array is the hidden features times the second weights. -/
theorem W4_dense : W4 m ρ c (Proc.devRef .tc main_call0_v48)
    = Layer1.whole (layer (F := Ideal) (src (F := Ideal) (m ((c : Thread nD τ).loc main_arg1))) (dst (F := Ideal) (m ((c : Thread nD τ).loc main_arg1)))
        (coef (F := Ideal) (src (F := Ideal) (m ((c : Thread nD τ).loc main_arg1))) (dst (F := Ideal) (m ((c : Thread nD τ).loc main_arg1))))
        (m ((c : Thread nD τ).loc main_arg3))
        (Layer0.whole (m ((c : Thread nD τ).loc main_arg0)) (m ((c : Thread nD τ).loc main_arg2))))
      (m ((c : Thread nD τ).loc main_arg4)) :=
  (W4_arr m ρ c 2).trans ((Layer1.result (V3 m ρ) c).trans
    (congrArg₂ Layer1.whole (W3_hid m ρ c) (W3_arg4 m ρ c)))

/-- The result buffer after the five segments: the two-layer function of the arguments. -/
theorem result : W5 m ρ c (Proc.devRef .tc main_v0)
    = net (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  rw [W5_out, W4_src, W4_dst, W4_coef, W4_arg5, W4_dense, whole0_eq, whole1_eq]
  rfl

end Cert.KernelIdeal.Net

end
-- ==== Proof.lean ====
/-
  A two-layer graph convolution: each layer multiplies the node features by a weight matrix, then, over the edge
  list with a self loop per node, sums `dinv[source] · dinv[destination] · row[source]` into each destination
  (`dinv` the inverse square root of the in-degree), adds a bias and clamps below at zero. The kernel program does
  the two dense products as row-tiled pallas_calls (ten blocks of 10000 rows, operands rounded to bf16, f32
  accumulation) and everything else on the host, computing the edge coefficients once; the reference does the
  products with the host's `dot_general` and computes the coefficients per layer. At the extended reals a change of
  float format is the identity and a product into the zero accumulator is the plain sum over the inner coordinate,
  so a row-tiled product is the whole product, and both programs compute `Graph.net` of the six arguments. No
  algebraic law beyond that re-indexing is needed, so the precondition is never opened.
-/
import proofs.«177827_j62079457296944_2_alg».proof.Defs
import proofs.«177827_j62079457296944_2_alg».proof.Proof.Gen.Kernel
import proofs.«177827_j62079457296944_2_alg».proof.Proof.Gen.Kernel.Skeleton
import proofs.«177827_j62079457296944_2_alg».proof.Proof.Gen.Kernel.Launch
import proofs.«177827_j62079457296944_2_alg».proof.Proof.Gen.Kernel.Points
import proofs.«177827_j62079457296944_2_alg».proof.Proof.Gen.Kernel.Frame
import proofs.«177827_j62079457296944_2_alg».proof.Proof.Gen.KernelIdeal
import proofs.«177827_j62079457296944_2_alg».proof.Proof.Gen.KernelIdeal.Skeleton
import proofs.«177827_j62079457296944_2_alg».proof.Proof.Gen.KernelIdeal.Launch
import proofs.«177827_j62079457296944_2_alg».proof.Proof.Gen.KernelIdeal.Points
import proofs.«177827_j62079457296944_2_alg».proof.Proof.Gen.KernelIdeal.Frame
import proofs.«177827_j62079457296944_2_alg».proof.Proof.Gen.ReferenceIdeal
import proofs.«177827_j62079457296944_2_alg».proof.Proof.Gen.Pre_finite_inputs
import proofs.«177827_j62079457296944_2_alg».proof.Proof.RefRun
import proofs.«177827_j62079457296944_2_alg».proof.Proof.RefValue
import proofs.«177827_j62079457296944_2_alg».proof.Proof.KernelRun
import proofs.«177827_j62079457296944_2_alg».proof.Proof.Net
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with `Graph.net` of the arguments in their result. -/
theorem algebraic : Cert.algebraic_KernelIdeal_ReferenceIdeal := by
  intro m ρ m' ρ' _ hagree
  refine ⟨fun c => Cert.ReferenceIdeal.Graph.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Net.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
